-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x512 .f32) (main_arg1 : IVec S2x3200000 32) (main_arg2 : FVec F S512x64 .f32) (main_arg3 : FVec F S64 .f32) (main_arg4 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S100000x64 : Shape := ⟨2, ![100000, 64]⟩
abbrev S5000x512 : Shape := ⟨2, ![5000, 512]⟩
abbrev S5000x64 : Shape := ⟨2, ![5000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S10000x64 : Shape := ⟨2, ![10000, 64]⟩

abbrev nBuf : Space → Nat
  | .hbm => 65
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64, .f32⟩
  | .hbm, ⟨5, _⟩ => ⟨S100000x64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x1, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S1x64, .f32⟩
  | .hbm, ⟨64, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S5000x512_S512x64_S5000x64_1_0_0_1_n_n_wf : DotDims.WF S5000x512 S512x64 S5000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S100000x64 : Shape := ⟨2, ![100000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64, .f32⟩
  | .hbm, ⟨5, _⟩ => ⟨S100000x64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x1, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .i1⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/- The kernel's program run from launch to return, with the contents of its result buffer named.

   The program is five segments: the first launch, three stretches of host operations, the second launch. The
   generated frame certificate threads the contents of every buffer through the five (`W0` at launch, …, `W5` at
   the return) and concludes only that the five argument arrays end as launched. The same run — the same segments,
   the same chain of thread states, the same reading of the last state against the final memory — also says what the
   result buffer holds at the end: `W5` at that buffer, that is, what the second launch's write-backs leave in its
   output array. -/
import proofs.«106436_j5781025980487_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the five argument arrays as launched. -/
theorem run_valued : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Gcn.KernelRun

end
-- ==== Proof.Spec.lean ====
/- The graph-convolution layer as functions of whole arrays, shared by both programs.

   The layer is  out = act(agg(X·W) + bias)  where
   * X·W is the dense feature transform (100000 × 512 by 512 × 64),
   * agg is the symmetric-normalised neighbour aggregation with self loops: every node is appended once to the
     list of edge sources and to the list of edge targets; deg(v) counts the edges arriving at v; each edge (s, t)
     carries the weight deg(s)^(-1/2) · deg(t)^(-1/2); row v of the result is the sum, over the edges arriving at
     v, of weight · row s of the transformed features,
   * act(v) = v where v ≥ 0 and slope · v elsewhere, with one bias and one slope per column.

   Both programs compute agg by the very same chain of host operations applied to the transformed features and
   to the edge list, so that chain is written here ONCE, as `aggregate`, and is never opened: the two programs
   are compared before it (the products are equal) and after it (the activations are equal). -/
import proofs.«106436_j5781025980487_1_alg».proof.KernelIdeal
import Idealize.ShloMosaic.PureOps.Ideal
import Idealize.ShloMosaic.Lib.ValueIdx

noncomputable section

namespace Cert.Gcn

open Idealize.ShloMosaic Idealize.ShloMosaic.ValueIdx
open Cert.KernelIdeal Cert.KernelIdeal.Facts₀

variable [Cert.KernelIdeal.Facts]
variable {F : FTy → Type} [FloatOps F]

/-- The edge sources: row 0 of the edge list followed by every node once (the self loops). -/
def sources (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The edge targets: row 1 of the edge list followed by every node once. -/
def targets (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A list of node numbers as a column of gather or scatter indices. -/
def asColumn {α : Type} (v : S3300000.Idx → α) : S3300000x1.Idx → α :=
  broadcastInDim S3300000x1 ![0] bcast_S3300000_S3300000x1_0 v

/-- A node number counted from the end when negative (jax's indexing convention): v + 100000 where v < 0. -/
def wrapped (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- The in-degree of every node: a one added at the target of every edge. -/
def degree (e : IVec S2x3200000 32) : FVec F S100000 .f32 :=
  Host.scatterAdd scatter_S100000_S3300000x1_S3300000_n_0_0_1
    (broadcastInDim S100000 ![] bcast_S_S100000 (constant (F := F) S_ .f32 0x00000000#32))
    (asColumn (targets e))
    (broadcastInDim S3300000 ![] bcast_S_S3300000 (constant (F := F) S_ .f32 0x3F800000#32))

/-- deg^(-1/2) where the degree is positive, zero elsewhere. -/
def invSqrtDegree (e : IVec S2x3200000 32) : FVec F S100000 .f32 :=
  select (cmpf (F := F) .ogt (degree e) (broadcastInDim S100000 ![] bcast_S_S100000 (constant (F := F) S_ .f32 0x00000000#32)))
    (Host.rsqrt (degree (F := F) e))
    (broadcastInDim S100000 ![] bcast_S_S100000 (id (constant (F := F) S_ .f32 0x00000000#32)))

/-- The weight of every edge: the product of the two end nodes' deg^(-1/2). -/
def edgeWeight (e : IVec S2x3200000 32) : FVec F S3300000 .f32 :=
  mulf (Host.gather gather_S100000_S3300000x1_S3300000_n_0_n_n_0_1_1 (invSqrtDegree (F := F) e) (asColumn (wrapped (sources e))))
    (Host.gather gather_S100000_S3300000x1_S3300000_n_0_n_n_0_1_1 (invSqrtDegree (F := F) e) (asColumn (wrapped (targets e))))

/-- The message of every edge: the source's row of the transformed features times the edge's weight. -/
def messages (h : FVec F S100000x64 .f32) (e : IVec S2x3200000 32) : FVec F S3300000x64 .f32 :=
  mulf (Host.gather gather_S100000x64_S3300000x1_S3300000x64_1_0_n_n_0_1_164 h (asColumn (wrapped (sources e))))
    (broadcastInDim S3300000x64 ![0, 1] bcast_S3300000x1_S3300000x64_0_1 (asColumn (edgeWeight (F := F) e)))

/-- The aggregation: every message added into its target's row, from zero. -/
def aggregate (h : FVec F S100000x64 .f32) (e : IVec S2x3200000 32) : FVec F S100000x64 .f32 :=
  Host.scatterAdd scatter_S100000x64_S3300000x1_S3300000x64_1_0_0_1
    (broadcastInDim S100000x64 ![] bcast_S_S100000x64 (constant (F := F) S_ .f32 0x00000000#32))
    (asColumn (targets e))
    (messages h e)

/-- The column of an index of the 100000 × 64 result. -/
def colOf (i : S100000x64.Idx) : Fin 64 := ⟨(i 1).val, idx2_lt1 i⟩

/-- Bias, then the leaky rectifier with one slope per column, on the extended reals: with v = r + bias, the result is
    v where v ≥ 0 and slope · v elsewhere. -/
def activate (r : S100000x64.Idx → EReal) (bias slope : Fin 64 → EReal) : S100000x64.Idx → EReal := fun i =>
  Scalar.select (FloatOps.cmpf (F := Ideal) (φ := .f32) .oge (r i + bias (colOf i)) (FloatOps.ofBits (F := Ideal) .f32 0x00000000#32))
    (r i + bias (colOf i)) (slope (colOf i) * (r i + bias (colOf i)))

end Cert.Gcn

end
-- ==== Proof.BetweenLaunches.lean ====
/- The host operations between the kernel's two launches, read as functions of what the first launch leaves.

   Between its two launches the kernel's program runs 58 host operations: they build the edge sources and targets
   (with the self loops), count the in-degrees, take deg^(-1/2), weigh every edge, gather the sources' rows of the
   transformed features, scale them and add them into their targets' rows — the chain `aggregate` of the
   specification — and they re-lay the bias and the slope, 64 numbers each, as 1 × 64 arrays.
   Here each of the three buffers the second launch reads is that function of the buffers the chain starts
   from, whatever those hold: the aggregation is never opened, only recognised. -/
import proofs.«106436_j5781025980487_1_alg».proof.Proof.Gen.KernelIdeal.Frame
import proofs.«106436_j5781025980487_1_alg».proof.Proof.Spec
import Idealize.ShloMosaic.Lib.StableHlo.Run

set_option maxRecDepth 16384

noncomputable section

namespace Cert.Gcn.Between

open Idealize.ShloMosaic Idealize.ShloMosaic.TcCoe Idealize.SL.Sem Idealize.ShloMosaic.StableHlo
open Cert.KernelIdeal Cert.KernelIdeal.Facts₀ Cert.KernelIdeal.Gen

variable {F : FTy → Type} [FloatOps F]

set_option maxHeartbeats 4000000 in
/-- After the three stretches of host operations, the buffer the second launch reads as its first operand holds the
    aggregation of the first launch's result over the edge list. -/
theorem aggregated (W : Valuation τ sig (Elt F)) :
    StableHlo.after (hostOps1_2 (F := F)) (StableHlo.after (hostOps1_1 (F := F)) (StableHlo.after (hostOps1 (F := F)) W)) (Proc.devRef .tc main_v43)
      = Cert.Gcn.aggregate (F := F) (W (Proc.devRef .tc main_v0)) (W (Proc.devRef .tc main_arg1)) := by
  after_results_simp
  rfl

set_option maxHeartbeats 4000000 in
/-- The bias as the second launch reads it: the 64 numbers as one row. -/
theorem biasRow (W : Valuation τ sig (Elt F)) :
    StableHlo.after (hostOps1_2 (F := F)) (StableHlo.after (hostOps1_1 (F := F)) (StableHlo.after (hostOps1 (F := F)) W)) (Proc.devRef .tc main_v44)
      = shapeCast S1x64 (W (Proc.devRef .tc main_arg3)) Facts₀.shapeCasts_S64_S1x64 := by
  after_results_simp
  rfl

set_option maxHeartbeats 4000000 in
/-- The slope as the second launch reads it: the 64 numbers as one row. -/
theorem slopeRow (W : Valuation τ sig (Elt F)) :
    StableHlo.after (hostOps1_2 (F := F)) (StableHlo.after (hostOps1_1 (F := F)) (StableHlo.after (hostOps1 (F := F)) W)) (Proc.devRef .tc main_v45)
      = shapeCast S1x64 (W (Proc.devRef .tc main_arg4)) Facts₀.shapeCasts_S64_S1x64 := by
  after_results_simp
  rfl

end Cert.Gcn.Between

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.LibBlockProduct.lean ====
/- The product of two matrices over the extended reals as ONE function of the two arrays, for any extents, and three
   readings of it: a `tpu.matmul` with the plain dimension numbers into the zero accumulator IS the product; the host's
   `dot_general` with the plain dimension numbers IS the product, whatever its precision annotation; and a block of whole
   rows of the product is the product of that block of rows of the left factor with the whole right factor (each entry
   of a product depends on one row of the left factor only), stated for any three re-indexings that move a row block
   to its place. No finiteness is used: every statement is an equality of the same finite sum of the same products. -/
import Idealize.ShloMosaic.PureOps.Ideal
import Idealize.ShloMosaic.PureOps.Ideal.Laws
import Idealize.ShloMosaic.Lib.ValueIdx
import proofs.«106436_j5781025980487_1_alg».proof.Proof.LibPlainMatmul
import proofs.«106436_j5781025980487_1_alg».proof.Proof.LibPlainDot

noncomputable section

open scoped BigOperators

open Idealize.ShloMosaic Idealize.ShloMosaic.ValueIdx

namespace Cert.Lib.BlockProduct

/-- The product of an M×K array and a K×N array: entry (p, q) is the sum over k of left(p, k) · right(k, q). -/
def prod {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

/-- The product read at coordinates. -/
theorem prod_apply {M K N : ℕ} (x : (⟨2, ![M, K]⟩ : Shape).Idx → EReal) (w : (⟨2, ![K, N]⟩ : Shape).Idx → EReal)
    (p : Fin M) (q : Fin N) : prod x w (ix2 p q) = ∑ k : Fin K, x (ix2 p k) * w (ix2 k q) := rfl

/-- A matrix unit's product into the zero accumulator is the product. -/
theorem matmul_eq_prod {M K N : ℕ} {φ₁ φ₂ : FTy} (l : FVec Ideal ⟨2, ![M, K]⟩ φ₁) (r : FVec Ideal ⟨2, ![K, N]⟩ φ₂) :
    FloatOps.matmul (DotDims.plain M K N) none l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  rw [prod_apply]
  exact Cert.Lib.PlainMatmul.plain_matmul_zero_apply l r p q

/-- The host's contraction is the product. -/
theorem dotGeneral_eq_prod {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  rw [prod_apply]
  exact Cert.Lib.PlainDot.plain_dotGeneral_apply prec sched l r p q

/-- A block of R whole rows of a product, starting at row `b`, is the product of those rows of the left factor with the
    right factor: `e0` places a row-block index of the left factor at rows `b …`, `e2` does the same for the product, and
    `e1` leaves the right factor's indices where they are. -/
theorem prod_rowBlock {M K N R : ℕ} (A : (⟨2, ![M, K]⟩ : Shape).Idx → EReal) (B : (⟨2, ![K, N]⟩ : Shape).Idx → EReal)
    (e0 : (⟨2, ![R, K]⟩ : Shape).Idx → (⟨2, ![M, K]⟩ : Shape).Idx) (e1 : (⟨2, ![K, N]⟩ : Shape).Idx → (⟨2, ![K, N]⟩ : Shape).Idx)
    (e2 : (⟨2, ![R, N]⟩ : Shape).Idx → (⟨2, ![M, N]⟩ : Shape).Idx) (b : ℕ)
    (h0 : ∀ z, (e0 z 0).val = b + (z 0).val ∧ (e0 z 1).val = (z 1).val)
    (h1 : ∀ z, (e1 z 0).val = (z 0).val ∧ (e1 z 1).val = (z 1).val)
    (h2 : ∀ z, (e2 z 0).val = b + (z 0).val ∧ (e2 z 1).val = (z 1).val)
    (y : (⟨2, ![R, N]⟩ : Shape).Idx) :
    prod (fun z => A (e0 z)) (fun z => B (e1 z)) y = prod A B (e2 y) := by
  unfold prod
  refine Finset.sum_congr rfl fun k _ => ?_
  have ea : e0 (ix2 (⟨(y 0).val, idx2_lt0 y⟩ : Fin R) k) = ix2 (⟨(e2 y 0).val, idx2_lt0 (e2 y)⟩ : Fin M) k :=
    funext fun a => Fin.ext (by
      match a with
      | ⟨0, _⟩ => exact ((h0 _).1).trans ((h2 y).1).symm
      | ⟨1, _⟩ => exact (h0 _).2)
  have eb : e1 (ix2 k (⟨(y 1).val, idx2_lt1 y⟩ : Fin N)) = ix2 k (⟨(e2 y 1).val, idx2_lt1 (e2 y)⟩ : Fin N) :=
    funext fun a => Fin.ext (by
      match a with
      | ⟨0, _⟩ => exact (h1 _).1
      | ⟨1, _⟩ => exact ((h1 _).2).trans ((h2 y).2).symm)
  show A (e0 _) * B (e1 _) = _
  rw [ea, eb]

end Cert.Lib.BlockProduct

end
-- ==== Proof.TransformValue.lean ====
/- The first kernel region's output array is the matrix product of its two input arrays.

   At each of its 20 grid points t the region multiplies rows 5000·t … 5000·t + 4999 of the 100000 × 512 left array by the
   whole 512 × 64 right array (after a change of float format that is the identity on the extended reals, into the zero
   accumulator) and stores the 5000 × 64 product as row block t of the 100000 × 64 output array. A block of whole rows of
   a product is the product of that block of rows of the left factor with the right factor, and the twenty row blocks
   tile the output array, so the array ends holding the product of the two arrays as the region found them. -/
import proofs.«106436_j5781025980487_1_alg».proof.Proof.Gen.KernelIdeal.Frame
import proofs.«106436_j5781025980487_1_alg».proof.Proof.Spec
import proofs.«106436_j5781025980487_1_alg».proof.Proof.LibBlockProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen
open Cert.Lib.BlockProduct (prod prod_rowBlock matmul_eq_prod)

namespace Cert.Gcn.Transform

/-- The zero offsets of a whole-buffer access. -/
theorem zero_off : (![0, 0] : Fin 2 → Nat) = fun _ => 0 := funext fun a => by fin_cases a <;> rfl

/-- The body's arithmetic: the change of format is the identity on the extended reals and the matrix unit's product
    into the zero accumulator is the product of the two blocks. -/
theorem payload_eq_prod (x0 : Vec Ideal S5000x512 .f32) (x1 : Vec Ideal S512x64 .f32) :
    k0_pay1 (F := Ideal) x0 x1 = prod (M := 5000) (K := 512) (N := 64) x0 x1 := by
  unfold k0_pay1
  exact matmul_eq_prod (M := 5000) (K := 512) (N := 64) (φ₁ := .bf16) (φ₂ := .bf16) x0 x1

/-- The index maps over the grid: at point t the left array's block is row block t, the right array's
    block is the whole array, the output's block is row block t. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An element of the left array's block at point t sits in row 5000·t + its own row, at its own column. -/
theorem left_emb (t : Fin cfg0.N) (z : S5000x512.Idx) :
    ((((cfg0.win 0).blk t).view.emb z) 0).val = 5000 * t.val + (z 0).val
      ∧ ((((cfg0.win 0).blk t).view.emb z) 1).val = (z 1).val := by
  obtain ⟨e0, e1, -⟩ := block_index t
  constructor
  · show win0_0.index t (0 : Fin 2) * 5000 + 1 * (z 0).val = _
    rw [e0]; omega
  · show win0_0.index t (1 : Fin 2) * 512 + 1 * (z 1).val = _
    rw [e1]; omega

/-- An element of the right array's block sits at its own coordinates: the block is the whole array. -/
theorem right_emb (t : Fin cfg0.N) (z : S512x64.Idx) :
    ((((cfg0.win 1).blk t).view.emb z) 0).val = (z 0).val
      ∧ ((((cfg0.win 1).blk t).view.emb z) 1).val = (z 1).val := by
  obtain ⟨-, -, e2, e3, -⟩ := block_index t
  constructor
  · show win0_1.index t (0 : Fin 2) * 512 + 1 * (z 0).val = _
    rw [e2]; omega
  · show win0_1.index t (1 : Fin 2) * 64 + 1 * (z 1).val = _
    rw [e3]; omega

/-- An element of the output's block at point t sits in row 5000·t + its own row, at its own column. -/
theorem out_emb (t : Fin cfg0.N) (z : S5000x64.Idx) :
    ((((cfg0.win 2).blk t).view.emb z) 0).val = 5000 * t.val + (z 0).val
      ∧ ((((cfg0.win 2).blk t).view.emb z) 1).val = (z 1).val := by
  obtain ⟨-, -, -, -, e4, e5⟩ := block_index t
  constructor
  · show win0_2.index t (0 : Fin 2) * 5000 + 1 * (z 0).val = _
    rw [e4]; omega
  · show win0_2.index t (1 : Fin 2) * 64 + 1 * (z 1).val = _
    rw [e5]; omega

/-- What point t writes back is row block t of the product of the two arrays as the region found them: the body's
    product of row block t of the left array with the whole right array is that block of rows of the whole product. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (prod (M := 100000) (K := 512) (N := 64) (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S5000x512) zero_off, View.ld_unit_zero (S := S512x64) zero_off]
  rw [payload_eq_prod]
  funext y
  show prod (M := 5000) (K := 512) (N := 64) (fun z => V c main_arg0 (((cfg0.win 0).blk t).view.emb z))
      (fun z => V c main_arg2 (((cfg0.win 1).blk t).view.emb z)) y
    = prod (M := 100000) (K := 512) (N := 64) (V c main_arg0) (V c main_arg2) (((cfg0.win 2).blk t).view.emb y)
  exact prod_rowBlock (M := 100000) (K := 512) (N := 64) (R := 5000) (V c main_arg0) (V c main_arg2)
    ((cfg0.win 0).blk t).view.emb ((cfg0.win 1).blk t).view.emb ((cfg0.win 2).blk t).view.emb (5000 * t.val)
    (left_emb t) (right_emb t) (out_emb t) y

/-- An index of the output array is in point t's block iff each coordinate is in the block's range on its axis. -/
theorem mem_block (t : Fin cfg0.N) (i : S100000x64.Idx) :
    i ∈ ((cfg0.win 2).blk t).view.set
      ↔ ∀ a : Fin 2, win0_2.index t a * S5000x64.size a ≤ (i a).val
          ∧ (i a).val < win0_2.index t a * S5000x64.size a + S5000x64.size a := by
  show i ∈ ((View.whole main_v0).slice (win0_2.rect t)).set ↔ _
  rw [View.set_slice_whole, Rect.mem_set_unit]
  exact Iff.rfl

/-- The twenty row blocks tile the output array: row r is in the block of point r / 5000, which writes back. -/
theorem blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e4, e5⟩ := block_index t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- The output array of the first region, after its twenty points, is the product of the left array and the right
    array as the region found them. -/
theorem transformed (V : (c : Dev nD) → (b : Ref sig .tc) → Buf (Elt Ideal) ((c : Thread nD τ).loc b)) (c : Dev nD) :
    (dat0 (F := Ideal) V c).arrAt 2 cfg0.N
      = Cert.Lib.BlockProduct.prod (M := 100000) (K := 512) (N := 64) (V c main_arg0) (V c main_arg2) :=
  (dat0 (F := Ideal) V c).arrAt_eq_of_cover 2
    (prod (M := 100000) (K := 512) (N := 64) (V c main_arg0) (V c main_arg2))
    (fun t _ => flushed_eq V c t) blocks_cover

end Cert.Gcn.Transform

end
-- ==== Proof.ActivationValue.lean ====
/- The kernel's second launch, read as one function of whole arrays.

   At grid point t (ten points) the body loads rows 10000·t … 10000·t + 9999 of the 100000 × 64 array of summed
   messages and the bias and the slope, each one row of 64 numbers, the same at every point. It stores, at (p, q) of
   the point's 10000 × 64 output block, v where v ≥ 0 and slope(q) · v elsewhere, with v = the loaded row entry plus
   bias(q): every operation is pointwise except the two row broadcasts. An entry of the output block sits at row
   10000·t + p of the output array, the same row the loaded entry came from, and the ten row blocks tile the array;
   so the array ends holding the specification's activation of the three arrays, index by index. -/
import proofs.«106436_j5781025980487_1_alg».proof.Proof.Gen.KernelIdeal.Frame
import proofs.«106436_j5781025980487_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Gcn.Activation

/-- The zero offsets of a whole-buffer access. -/
theorem zero_offsets : (![0, 0] : Fin 2 → Nat) = fun _ => 0 := funext fun a => by fin_cases a <;> rfl

/-- One entry of what the body stores: with v the row entry plus the column's bias, v where v ≥ 0 and the
    column's slope times v elsewhere. -/
theorem payload_apply (x0 : Vec Ideal S10000x64 .f32) (x1 x2 : Vec Ideal S1x64 .f32) (p : Fin 10000) (q : Fin 64) :
    k1_pay1 (F := Ideal) x0 x1 x2 (ix2 p q)
      = Scalar.select (FloatOps.cmpf (F := Ideal) (φ := .f32) .oge (x0 (ix2 p q) + x1 (ix2 (0 : Fin 1) q)) (FloatOps.ofBits (F := Ideal) .f32 0x00000000#32))
          (x0 (ix2 p q) + x1 (ix2 (0 : Fin 1) q)) (x2 (ix2 (0 : Fin 1) q) * (x0 (ix2 p q) + x1 (ix2 (0 : Fin 1) q))) := by
  unfold k1_pay1
  simp only [select_apply, cmpf_apply, addf_apply, mulf_apply, broadcast_apply, shapeCast_self]
  rw [broadcastTo_1b_ab_apply, broadcastTo_1b_ab_apply]

/-- The stored entry is the activation at the array index it lands on: the row block's entry is the array's there,
    the bias and slope rows are the arrays' single rows, and the column is kept. -/
theorem payload_eq_activate (r : S100000x64.Idx → EReal) (b a : S1x64.Idx → EReal)
    (x0 : Vec Ideal S10000x64 .f32) (x1 x2 : Vec Ideal S1x64 .f32) (j : S10000x64.Idx) (i : S100000x64.Idx)
    (h0 : x0 j = r i) (h1 : ∀ q : Fin 64, x1 (ix2 (0 : Fin 1) q) = b (ix2 (0 : Fin 1) q))
    (h2 : ∀ q : Fin 64, x2 (ix2 (0 : Fin 1) q) = a (ix2 (0 : Fin 1) q)) (hq : (i 1).val = (j 1).val) :
    k1_pay1 (F := Ideal) x0 x1 x2 j
      = Cert.Gcn.activate r (fun q => b (ix2 (0 : Fin 1) q)) (fun q => a (ix2 (0 : Fin 1) q)) i := by
  obtain ⟨p, q, rfl⟩ : ∃ (p : Fin 10000) (q : Fin 64), j = ix2 p q := ⟨j 0, j 1, eq_ix2 j⟩
  have hc : Cert.Gcn.colOf i = q := Fin.ext hq
  rw [payload_apply, h0, h1, h2]
  unfold Cert.Gcn.activate
  simp only [hc]

/-- The block indices over the grid: the row block moves with the point, the bias and slope blocks stay. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the activation of the arrays as the region finds them. -/
theorem flushed_eq (c : Dev nD) (t : Fin cfg1.N) :
    (dat1 (F := Ideal) V c).flushed 3 t = ((cfg1.win 3).blk t).view.read (Elt Ideal)
      (Cert.Gcn.activate (V c main_v43) (fun q => V c main_v44 (ix2 (0 : Fin 1) q)) (fun q => V c main_v45 (ix2 (0 : Fin 1) q))) := by
  show (cfg1.win 3).cut (grid1.coords t) ((dat1 (F := Ideal) V c).after 3 t) = _
  rw [after1_3]
  unfold out1_3
  rw [View.canon_unit_zero zero_offsets]
  simp only [View.ld_unit_zero (S := S10000x64) zero_offsets, View.ld_unit_zero (S := S1x64) zero_offsets]
  obtain ⟨e00, e01, e10, e11, e20, e21, e30, e31⟩ := block_indices t
  funext j
  show k1_pay1 (F := Ideal) (iblk1 V c 0 t) (iblk1 V c 1 t) (iblk1 V c 2 t) j
    = Cert.Gcn.activate (V c main_v43) (fun q => V c main_v44 (ix2 (0 : Fin 1) q)) (fun q => V c main_v45 (ix2 (0 : Fin 1) q)) (((cfg1.win 3).blk t).view.emb j)
  refine payload_eq_activate (V c main_v43) (V c main_v44) (V c main_v45) _ _ _ j _ ?_ (fun q => ?_) (fun q => ?_) ?_
  · show V c main_v43 (((cfg1.win 0).blk t).view.emb j) = V c main_v43 (((cfg1.win 3).blk t).view.emb j)
    refine congrArg (V c main_v43) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  · show V c main_v45 (((cfg1.win 2).blk t).view.emb (ix2 (0 : Fin 1) q)) = V c main_v45 (ix2 (0 : Fin 1) q)
    refine congrArg (V c main_v45) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  · show win1_3.index t (1 : Fin 2) * 64 + 1 * (j 1).val = (j 1).val
    omega

/-- An index of the array is in point t's block iff each coordinate is in the block's range on its axis. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v46).slice (win1_3.rect t)).set ↔ _
  rw [View.set_slice_whole, Rect.mem_set_unit]
  exact Iff.rfl

/-- The ten row blocks tile the array: row r is in the block of point r / 10000. -/
theorem covered (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 10 := N_1
  let t : Fin cfg1.N := ⟨(i 0).val / 10000, by rw [hN]; omega⟩
  obtain ⟨-, -, -, -, -, -, e30, e31⟩ := block_indices t
  have ht : t.val = (i 0).val / 10000 := rfl
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE ARRAY after the region: the activation of the summed rows with the bias and slope rows, index by index. -/
theorem activated (c : Dev nD) :
    (dat1 (F := Ideal) V c).arrAt 3 cfg1.N = Cert.Gcn.activate (V c main_v43) (fun q => V c main_v44 (ix2 (0 : Fin 1) q)) (fun q => V c main_v45 (ix2 (0 : Fin 1) q)) :=
  (dat1 (F := Ideal) V c).arrAt_eq_of_cover 3 _ (fun t _ => flushed_eq V c t) covered

end Cert.Gcn.Activation

end
-- ==== Proof.KernelValue.lean ====
/- The kernel's result buffer at the return, as the layer's whole-array functions of the five arguments.

   Followed backwards from the return: the result buffer holds what the second launch's write-backs leave — the
   activation of the three buffers that launch reads; of those, the first holds the aggregation of what the first
   launch's write-backs leave over the edge list, and the other two the bias and the slope re-laid as rows; the first
   launch's write-backs leave the product X·W; and the edge list, the bias and the slope are the argument arrays, which
   nothing before has written. -/
import proofs.«106436_j5781025980487_1_alg».proof.Proof.KernelRun
import proofs.«106436_j5781025980487_1_alg».proof.Proof.BetweenLaunches
import proofs.«106436_j5781025980487_1_alg».proof.Proof.TransformValue
import proofs.«106436_j5781025980487_1_alg».proof.Proof.ActivationValue
import proofs.«106436_j5781025980487_1_alg».proof.Proof.Spec
import proofs.«106436_j5781025980487_1_alg».proof.Proof.LibBlockProduct
import Idealize.ShloMosaic.Lib.ValueLayout

set_option maxRecDepth 16384

noncomputable section

namespace Cert.Gcn.KernelValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- 64 numbers re-laid as one row, read back as 64 numbers. -/
theorem rowOf (v : FVec Ideal S64 .f32) (h : S64.ShapeCasts S1x64) :
    (fun q : Fin 64 => shapeCast S1x64 v h (ix2 (0 : Fin 1) q)) = fun q => v (ix1 q) :=
  funext fun q => shapeCast_a_1a_apply v h 0 q

/-- THE KERNEL'S RESULT on the extended reals: the activation of the aggregation of the product X·W. -/
theorem result_eq (c : Dev nD) :
    W5 (F := Ideal) m ρ c (Proc.devRef .tc main_v46)
      = Cert.Gcn.activate (Cert.Gcn.aggregate (F := Ideal)
          (Cert.Lib.BlockProduct.prod (M := 100000) (K := 512) (N := 64) (m ((c.tc : Thread nD τ).loc main_arg0)) (m ((c.tc : Thread nD τ).loc main_arg2)))
          (m ((c.tc : Thread nD τ).loc main_arg1)))
        (fun q => m ((c.tc : Thread nD τ).loc main_arg3) (ix1 q)) (fun q => m ((c.tc : Thread nD τ).loc main_arg4) (ix1 q)) := by
  have h46 : W5 m ρ c (Proc.devRef .tc main_v46) = (dat1 (V4 m ρ) c).arrAt 3 cfg1.N := W5_arr m ρ c 3
  have h43 : V4 m ρ c main_v43 = Cert.Gcn.aggregate (F := Ideal) (W1 m ρ c (Proc.devRef .tc main_v0)) (W1 m ρ c (Proc.devRef .tc main_arg1)) :=
    Cert.Gcn.Between.aggregated (W1 m ρ c)
  have h44 : V4 m ρ c main_v44 = shapeCast S1x64 (W1 m ρ c (Proc.devRef .tc main_arg3)) Facts₀.shapeCasts_S64_S1x64 :=
    Cert.Gcn.Between.biasRow (W1 m ρ c)
  have h45 : V4 m ρ c main_v45 = shapeCast S1x64 (W1 m ρ c (Proc.devRef .tc main_arg4)) Facts₀.shapeCasts_S64_S1x64 :=
    Cert.Gcn.Between.slopeRow (W1 m ρ c)
  have hv0 : W1 m ρ c (Proc.devRef .tc main_v0)
      = Cert.Lib.BlockProduct.prod (M := 100000) (K := 512) (N := 64) (m ((c.tc : Thread nD τ).loc main_arg0)) (m ((c.tc : Thread nD τ).loc main_arg2)) :=
    (W1_arr m ρ c 2).trans (Cert.Gcn.Transform.transformed (V0 m ρ) c)
  have ha1 : W1 m ρ c (Proc.devRef .tc main_arg1) = m ((c.tc : Thread nD τ).loc main_arg1) := W1_of_ne m ρ c main_arg1 (by decide)
  have ha3 : W1 m ρ c (Proc.devRef .tc main_arg3) = m ((c.tc : Thread nD τ).loc main_arg3) := W1_of_ne m ρ c main_arg3 (by decide)
  have ha4 : W1 m ρ c (Proc.devRef .tc main_arg4) = m ((c.tc : Thread nD τ).loc main_arg4) := W1_of_ne m ρ c main_arg4 (by decide)
  rw [h46, Cert.Gcn.Activation.activated (V4 m ρ) c, h43, h44, h45, hv0, ha1, ha3, ha4, rowOf, rowOf]

end Cert.Gcn.KernelValue

end
-- ==== Proof.RefValue.lean ====
/- What the reference computes, as the layer's whole-array functions of its five arguments.

   The reference's run ends with its result at one long term: the composition of its 67 host operations. Read from the
   outside in, that term is  act(agg(X·W, E) + bias)  with
   * `epilogue`: the last nine operations — the bias row broadcast to every row and added, the comparison with zero,
     the slope row broadcast to every row and multiplied, the selection —, which index by index is `activate`;
   * `aggregate` (the shared chain, never opened here): the very same operations, over the very same dimension
     numbers, as the kernel's program applies between its two launches;
   * the host's contraction of X (100000 × 512) with W (512 × 64) over the one shared axis, which on the extended
     reals is the matrix product `prod` whatever the order of its sum. -/
import proofs.«106436_j5781025980487_1_alg».proof.Proof.RefRunPatched
import proofs.«106436_j5781025980487_1_alg».proof.Proof.Gen.KernelIdeal
import proofs.«106436_j5781025980487_1_alg».proof.Proof.Spec
import proofs.«106436_j5781025980487_1_alg».proof.Proof.LibBlockProduct
import Idealize.ShloMosaic.Lib.Pipeline.Value

noncomputable section

namespace Cert.Gcn.Ref

open Idealize.ShloMosaic Idealize.ShloMosaic.TcCoe Idealize.SL.Sem Idealize.ShloMosaic.ValueIdx
open Cert.ReferenceIdeal Cert.ReferenceIdeal.Facts₀

variable {F : FTy → Type} [FloatOps F]

/-- A row of 64 numbers repeated on every one of the 100000 rows. -/
def everyRow (v : FVec F S64 .f32) : FVec F S100000x64 .f32 :=
  broadcastInDim S100000x64 ![0, 1] bcast_S1x64_S100000x64_0_1 (broadcastInDim S1x64 ![1] bcast_S64_S1x64_1 v)

/-- The reference's last operations: bias added to every row, then v where v ≥ 0 and slope · v elsewhere. -/
def epilogue (r : FVec F S100000x64 .f32) (b α : FVec F S64 .f32) : FVec F S100000x64 .f32 :=
  select (cmpf (F := F) .oge (addf r (everyRow b)) (broadcastInDim S100000x64 ![] bcast_S_S100000x64 (constant (F := F) S_ .f32 0x00000000#32)))
    (addf r (everyRow b)) (mulf (everyRow α) (addf r (everyRow b)))

/-- The reference's result term is its epilogue of the shared aggregation of its contraction. -/
theorem result_shape (m : (ℓ : Loc nD τ sig) → Buf (Elt F) ℓ) (c : Dev nD) :
    Cert.ReferenceIdeal.ValueP.res_main_v52 m c
      = epilogue (Cert.Gcn.aggregate (F := F)
          (Host.dotGeneral dot_S100000x512_S512x64_S100000x64_1_0_0_1_n_n none (m ((c.tc : Thread nD τ).loc main_arg0)) (m ((c.tc : Thread nD τ).loc main_arg2)))
          (m ((c.tc : Thread nD τ).loc main_arg1)))
        (m ((c.tc : Thread nD τ).loc main_arg3)) (m ((c.tc : Thread nD τ).loc main_arg4)) := by
  rfl

/-- A row repeated on every row, read at an index: the row's entry at the index's column. -/
theorem everyRow_apply (v : FVec Ideal S64 .f32) (i : S100000x64.Idx) :
    everyRow (F := Ideal) v i = v (ix1 (Cert.Gcn.colOf i)) := by
  unfold everyRow
  rw [broadcastInDim_apply _ _ _ i (ix2 (0 : Fin 1) (Cert.Gcn.colOf i)) (fun a => by
        match a with
        | ⟨0, _⟩ => rfl
        | ⟨1, _⟩ => rfl),
    broadcastInDim_apply _ _ _ (ix2 (0 : Fin 1) (Cert.Gcn.colOf i)) (ix1 (Cert.Gcn.colOf i)) (fun a => by
        match a with
        | ⟨0, _⟩ => rfl)]

/-- The reference's last operations, index by index on the extended reals, are the specification's activation with the
    bias and the slope read as 64 numbers. -/
theorem epilogue_eq (r : FVec Ideal S100000x64 .f32) (b α : FVec Ideal S64 .f32) :
    epilogue (F := Ideal) r b α = Cert.Gcn.activate r (fun q => b (ix1 q)) (fun q => α (ix1 q)) := by
  funext i
  unfold epilogue Cert.Gcn.activate
  simp only [select_apply, cmpf_apply, addf_apply, mulf_apply, everyRow_apply]
  rfl

/-- THE REFERENCE'S RESULT on the extended reals: the activation of the aggregation of the product X·W. -/
theorem result_eq (m : (ℓ : Loc nD τ sig) → Buf (Elt Ideal) ℓ) (c : Dev nD) :
    Cert.ReferenceIdeal.ValueP.res_main_v52 (F := Ideal) m c
      = Cert.Gcn.activate (Cert.Gcn.aggregate (F := Ideal)
          (Cert.Lib.BlockProduct.prod (M := 100000) (K := 512) (N := 64) (m ((c.tc : Thread nD τ).loc main_arg0)) (m ((c.tc : Thread nD τ).loc main_arg2)))
          (m ((c.tc : Thread nD τ).loc main_arg1)))
        (fun q => m ((c.tc : Thread nD τ).loc main_arg3) (ix1 q)) (fun q => m ((c.tc : Thread nD τ).loc main_arg4) (ix1 q)) := by
  rw [result_shape, epilogue_eq]
  have hp : ∀ (l : FVec Ideal S100000x512 .f32) (w : FVec Ideal S512x64 .f32),
      Host.dotGeneral (F := Ideal) dot_S100000x512_S512x64_S100000x64_1_0_0_1_n_n none l w
        = Cert.Lib.BlockProduct.prod (M := 100000) (K := 512) (N := 64) l w := fun l w =>
    Cert.Lib.BlockProduct.dotGeneral_eq_prod (M := 100000) (K := 512) (N := 64) (φ₁ := .f32) (φ₂ := .f32) none _ l w
  rw [hp]

end Cert.Gcn.Ref

end
-- ==== Proof.lean ====
/- A graph-convolution layer, computed two ways, gives the same 100000 × 64 array on the extended reals.

   Both programs take the node features X (100000 × 512), the edge list E (2 × 3200000 node numbers), the weights W
   (512 × 64), a bias and a slope (64 numbers each) and return  act(agg(X·W, E) + bias):
   * the feature transform X·W. The kernel's first launch computes it 5000 rows at a time on the matrix unit, after a
     change of float format that is the identity on the extended reals, into a zero accumulator; the reference
     contracts the whole arrays at once. A block of whole rows of a product is the product of that block of rows, and
     the twenty blocks tile the array, so both are the one matrix product;
   * the neighbour aggregation agg with self loops and symmetric normalisation: the SAME chain of host operations in
     both programs, applied to equal transformed features and the same edge list — compared as one function, never
     opened;
   * the bias and the leaky rectifier with one slope per column. The kernel's second launch computes them 10000 rows
     at a time from the bias and the slope re-laid as rows; the reference on the whole array from the bias and the
     slope broadcast to every row. Index by index both are v where v ≥ 0 and slope · v elsewhere, v = agg + bias.
   No algebraic law beyond reading each side index by index joins the two, so finiteness of the inputs is never used.

   The frames of the two kernel programs are the generated frame certificates. The reference's frame is its run with
   the result dropped. The idealization rewrote no operation, so there is nothing to preserve. -/
import proofs.«106436_j5781025980487_1_alg».proof.Defs
import proofs.«106436_j5781025980487_1_alg».proof.Proof.Gen.Kernel
import proofs.«106436_j5781025980487_1_alg».proof.Proof.Gen.Kernel.Frame
import proofs.«106436_j5781025980487_1_alg».proof.Proof.Gen.KernelIdeal
import proofs.«106436_j5781025980487_1_alg».proof.Proof.Gen.KernelIdeal.Frame
import proofs.«106436_j5781025980487_1_alg».proof.Proof.Gen.ReferenceIdeal
import proofs.«106436_j5781025980487_1_alg».proof.Proof.Gen.Pre_finite_inputs
import proofs.«106436_j5781025980487_1_alg».proof.Proof.KernelRun
import proofs.«106436_j5781025980487_1_alg».proof.Proof.KernelValue
import proofs.«106436_j5781025980487_1_alg».proof.Proof.RefRunPatched
import proofs.«106436_j5781025980487_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the five arguments both programs end with the activation of the aggregation of the
    product X·W in their result buffers. -/
theorem algebraic : Cert.algebraic_KernelIdeal_ReferenceIdeal := by
  intro m ρ m' ρ' _ hagree
  refine ⟨fun c => Cert.Gcn.activate (Cert.Gcn.aggregate (F := Ideal)
      (Cert.Lib.BlockProduct.prod (M := 100000) (K := 512) (N := 64)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)))
    (fun q => m ((c.tc : Thread Cert.KernelIdeal.nD Cert.KernelIdeal.τ).loc Cert.KernelIdeal.main_arg3) (ix1 q))
    (fun q => m ((c.tc : Thread Cert.KernelIdeal.nD Cert.KernelIdeal.τ).loc Cert.KernelIdeal.main_arg4) (ix1 q)), ?_, ?_⟩
  · exact (θ_run Cert.KernelIdeal.defs _ _).mono
      (fun r h c => ⟨(h c).1.trans (Cert.Gcn.KernelValue.result_eq m ρ c), (h c).2⟩)
      (Cert.Gcn.KernelRun.run_valued (F := Ideal) m ρ)
  · refine (θ_run Cert.ReferenceIdeal.defs _ _).mono (fun r h c => ⟨(h c).1.trans ?_, (h c).2⟩)
      (Cert.ReferenceIdeal.ValueP.run (F := Ideal) m' ρ')
    rw [Cert.Gcn.Ref.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
